-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S256x128 : Shape := ⟨2, ![256, 128]⟩
abbrev S256 : Shape := ⟨1, ![256]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S131072x128 .f32) (main_arg1 : FVec F S256x128 .f32) (main_arg2 : FVec F S256 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S131072x128 : Shape := ⟨2, ![131072, 128]⟩
abbrev S256x128 : Shape := ⟨2, ![256, 128]⟩
abbrev S256 : Shape := ⟨1, ![256]⟩
abbrev S128x256 : Shape := ⟨2, ![128, 256]⟩
abbrev S1x256 : Shape := ⟨2, ![1, 256]⟩
abbrev S131072x256 : Shape := ⟨2, ![131072, 256]⟩
abbrev S4096x128 : Shape := ⟨2, ![4096, 128]⟩
abbrev S4096x256 : Shape := ⟨2, ![4096, 256]⟩

abbrev nBuf : Space → Nat
  | .hbm => 6
  | .vmem => 6
  | .smem => 0
  | _ => 0

abbrev bufTy : (tb : Table) → Fin (tcTables nBuf tb) → BufTy
  | .hbm, ⟨0, _⟩ => ⟨S131072x128, .f32⟩
  | .hbm, ⟨1, _⟩ => ⟨S256x128, .f32⟩
  | .hbm, ⟨2, _⟩ => ⟨S256, .f32⟩
  | .hbm, ⟨3, _⟩ => ⟨S128x256, .f32⟩
  | .hbm, ⟨4, _⟩ => ⟨S1x256, .f32⟩
  | .hbm, ⟨5, _⟩ => ⟨S131072x256, .f32⟩
  | .local _ .vmem, ⟨0, _⟩ => ⟨S4096x128, .f32⟩
  | .local _ .vmem, ⟨1, _⟩ => ⟨S4096x128, .f32⟩
  | .local _ .vmem, ⟨2, _⟩ => ⟨S128x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x128_S128x256_1_0 : S256x128.Transposes [1, 0] S128x256
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S131072x256.size a
  hwx0_3 : ∀ i : grid0.Coords, EltTy.bits .f32 = 32 ∨ (Rect.block (s := S131072x256) S4096x256.size (cc0_transform_3 i) (hinb0_3 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x128 : Shape := ⟨2, ![131072, 128]⟩
abbrev S256x128 : Shape := ⟨2, ![256, 128]⟩
abbrev S256 : Shape := ⟨1, ![256]⟩
abbrev S131072x256 : Shape := ⟨2, ![131072, 256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S256x128, .f32⟩
  | .hbm, ⟨2, _⟩ => ⟨S256, .f32⟩
  | .hbm, ⟨3, _⟩ => ⟨S131072x256, .f32⟩
  | .hbm, ⟨4, _⟩ => ⟨S1x256, .f32⟩
  | .hbm, ⟨5, _⟩ => ⟨S131072x256, .f32⟩
  | .hbm, ⟨6, _⟩ => ⟨S131072x256, .f32⟩
  | .hbm, ⟨7, _⟩ => ⟨S131072x256, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S131072x128_S256x128_S131072x256_1_1_0_0_n_n_wf : DotDims.WF S131072x128 S256x128 S131072x256 [1] [1] [0] [0] [] []

variable [Facts₀]

def dot_S131072x128_S256x128_S131072x256_1_1_0_0_n_n : DotDims S131072x128 S256x128 S131072x256 where
  lhsContracting := [1]
  rhsContracting := [1]
  lhsNonContracting := [0]
  rhsNonContracting := [0]
  lhsBatch := []
  rhsBatch := []
  wf := dot_S131072x128_S256x128_S131072x256_1_1_0_0_n_n_wf

class Facts : Prop extends Facts₀ where

variable [Facts]
-- ==== Proof.Spec.lean ====
/-
  The function both programs compute, index by index, on the extended reals.

  For a row `b` of `x` (131072 rows of 128 entries) and an output feature `o` (256 features, each a row of the
  weight matrix and an entry of the bias vector), the affine form is the inner product of the two rows plus the
  feature's bias,
      z b o = (Σ_d x[b, d] · W[o, d]) + bias[o],
  and the result array holds its square, `z b o · z b o`, at `(b, o)`.

  Nothing here depends on finiteness: the two programs arrange the same products in the same sum, and differ only
  in how the weight's entry `W[o, d]` is addressed (one reads a transposed copy at `(d, o)`).
-/
import Idealize.ShloMosaic.PureOps.Ideal
import Idealize.ShloMosaic.Lib.ValueIdx

noncomputable section

open scoped BigOperators

namespace Cert.AffineSquare

open Idealize.ShloMosaic Idealize.ShloMosaic.ValueIdx

/-- The affine form at row `b` and feature `o`: row `b` of `x` against row `o` of the weight, plus the bias of `o`. -/
def affine (x : (⟨2, ![131072, 128]⟩ : Shape).Idx → EReal) (w : (⟨2, ![256, 128]⟩ : Shape).Idx → EReal)
    (bias : (⟨1, ![256]⟩ : Shape).Idx → EReal) (b : Fin 131072) (o : Fin 256) : EReal :=
  (∑ d : Fin 128, x (ix2 b d) * w (ix2 o d)) + bias (ix1 o)

/-- The result array: the affine form squared, entry by entry. -/
def result (x : (⟨2, ![131072, 128]⟩ : Shape).Idx → EReal) (w : (⟨2, ![256, 128]⟩ : Shape).Idx → EReal)
    (bias : (⟨1, ![256]⟩ : Shape).Idx → EReal) : (⟨2, ![131072, 256]⟩ : Shape).Idx → EReal :=
  fun i => affine x w bias (i 0) (i 1) * affine x w bias (i 0) (i 1)

/-- The result at an index given by its two coordinates. -/
theorem result_ix2 (x : (⟨2, ![131072, 128]⟩ : Shape).Idx → EReal) (w : (⟨2, ![256, 128]⟩ : Shape).Idx → EReal)
    (bias : (⟨1, ![256]⟩ : Shape).Idx → EReal) (b : Fin 131072) (o : Fin 256) :
    result x w bias (ix2 b o) = affine x w bias b o * affine x w bias b o := rfl

end Cert.AffineSquare

end
-- ==== Proof.RefValue.lean ====
/-
  The reference computes `Cert.AffineSquare.result`.

  Its five host operations, read one at a time at an index `(b, o)`: the contraction of `x` and the weight over
  their second axes is `Σ_d x[b, d] · W[o, d]`; the bias, given a unit leading axis and then repeated down the
  rows, reads `bias[o]`; their sum is the affine form, and the last operation multiplies it by itself.
-/
import proofs.«162497_j39006892982497_1_alg».proof.Proof.Gen.ReferenceIdeal.Read
import proofs.«162497_j39006892982497_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.AffineSquare

/-- At `(b, o)` the contraction reads row `b` of its left operand … -/
theorem lidx_eq (b : Fin 131072) (o : Fin 256) (k : Fin 128) : lidx_main_v0 (ix2 b o) k = ix2 b k :=
  funext fun a => Fin.ext (by match a with | ⟨0, _⟩ => rfl | ⟨1, _⟩ => rfl)

/-- … and row `o` of its right operand. -/
theorem ridx_eq (b : Fin 131072) (o : Fin 256) (k : Fin 128) : ridx_main_v0 (ix2 b o) k = ix2 o k :=
  funext fun a => Fin.ext (by match a with | ⟨0, _⟩ => rfl | ⟨1, _⟩ => rfl)

/-- Through its two broadcasts the bias is read at the column `o`. -/
theorem bidx_eq (b : Fin 131072) (o : Fin 256) : idx_main_v1 (idx_main_v2 (ix2 b o)) = ix1 o :=
  funext fun a => Fin.ext (by match a with | ⟨0, _⟩ => rfl)

/-- The reference's last stage is the squared affine form of its three arguments. -/
theorem stage_eq (x : (⟨S131072x128, .f32⟩ : BufTy).Contents (Elt Ideal)) (w : (⟨S256x128, .f32⟩ : BufTy).Contents (Elt Ideal))
    (bias : (⟨S256, .f32⟩ : BufTy).Contents (Elt Ideal)) :
    val_main_v4 (F := Ideal) x w bias = result x w bias := by
  funext i
  obtain ⟨b, o, rfl⟩ : ∃ (b : Fin 131072) (o : Fin 256), i = ix2 b o := ⟨i 0, i 1, eq_ix2 i⟩
  rw [val_main_v4_apply, val_main_v3_apply, val_main_v0_apply, val_main_v2_apply, val_main_v1_apply, result_ix2]
  simp only [lidx_eq, ridx_eq, bidx_eq, Ideal.addf_def, Ideal.mulf_def]
  rfl

end Cert.ReferenceIdeal.RefValue

end
-- ==== Proof.Payload.lean ====
/-
  What the kernel body stores, read at an entry `(r, o)` of its output block.

  The body loads a block of 4096 rows of `x`, the whole transposed weight (128 × 256) and the bias as one row
  (1 × 256); it multiplies the first two into a zero accumulator, adds the bias row to every row of the product, and
  squares. On the extended reals the product's entry `(r, o)` is `Σ_d X[r, d] · Wt[d, o]` (the zero accumulator adds
  nothing), the repeated bias row reads `B[0, o]`, and the two casts of a block to its own shape change nothing.
-/
import proofs.«162497_j39006892982497_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The product's operand indices, coordinate by coordinate -/

/-- The left operand is read in the output's row … -/
theorem lhs_row (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl

/-- … at the summation index; -/
theorem lhs_contr (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q

/-- the right operand at the summation index … -/
theorem rhs_contr (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q

/-- … in the output's column. -/
theorem rhs_col (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-! ## The three non-pointwise pieces at `(r, o)` -/

/-- The product into the zero accumulator: the inner product of row `r` of the left block with column `o` of the right. -/
theorem product_apply (X : FVec Ideal S4096x128 .f32) (Wt : FVec Ideal S128x256 .f32) (r : Fin 4096) (o : Fin 256) :
    matmul (F := Ideal) dot_S4096x128_S128x256_S4096x256_1_0_0_1_n_n none X Wt (constant (F := Ideal) S4096x256 .f32 0x00000000#32) (ix2 r o)
      = ∑ d : Fin 128, X (ix2 r d) * Wt (ix2 d o) := by
  simp only [matmul]
  rw [Ideal.matmul_constant_zero_apply,
    ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r o)
      ((contrEquiv1 dot_S4096x128_S128x256_S4096x256_1_0_0_1_n_n 128 rfl rfl).symm k) = ix2 r k :=
    funext fun a => Fin.ext (by
      match a with
      | ⟨0, _⟩ => exact lhs_row _ _
      | ⟨1, _⟩ => exact (lhs_contr _ _).trans hk)
  have er : dot_S4096x128_S128x256_S4096x256_1_0_0_1_n_n.rhsIdx (ix2 r o)
      ((contrEquiv1 dot_S4096x128_S128x256_S4096x256_1_0_0_1_n_n 128 rfl rfl).symm k) = ix2 k o :=
    funext fun a => Fin.ext (by
      match a with
      | ⟨0, _⟩ => exact (rhs_contr _ _).trans hk
      | ⟨1, _⟩ => exact rhs_col _ _)
  rw [el, er]

/-- The body's payload at `(r, o)`: the inner product plus the bias row's entry, squared. -/
theorem pay_apply (X : FVec Ideal S4096x128 .f32) (Wt : FVec Ideal S128x256 .f32) (B : FVec Ideal S1x256 .f32)
    (r : Fin 4096) (o : Fin 256) :
    k0_pay1 (F := Ideal) X Wt B (ix2 r o)
      = ((∑ d : Fin 128, X (ix2 r d) * Wt (ix2 d o)) + B (ix2 (0 : Fin 1) o))
        * ((∑ d : Fin 128, X (ix2 r d) * Wt (ix2 d o)) + B (ix2 (0 : Fin 1) o)) := by
  unfold k0_pay1
  simp only [shapeCast_self]
  rw [mulf_apply, addf_apply, product_apply, broadcastTo_1b_ab_apply]

end Cert.KernelIdeal.Payload

end
-- ==== Proof.KernelValue.lean ====
/-
  The kernel's result array is `Cert.AffineSquare.result` of the three arguments.

  The grid has 32 points; point `t` is handed rows `4096·t … 4096·t + 4095` of `x`, the whole transposed weight and the
  bias as one row, and writes back rows `4096·t … 4096·t + 4095` of the output. So the entry `(r, o)` of what point `t`
  writes is the squared affine form at row `4096·t + r` and feature `o`: the transposed weight read at `(d, o)` is the
  weight at `(o, d)`, and the bias row read at `(0, o)` is the bias at `o`. The 32 row bands cover the output, so after
  the run the whole array is that one function.
-/
import proofs.«162497_j39006892982497_1_alg».proof.Proof.Gen.KernelIdeal.Value
import proofs.«162497_j39006892982497_1_alg».proof.Proof.Payload
import proofs.«162497_j39006892982497_1_alg».proof.Proof.Spec
import Idealize.ShloMosaic.Lib.StableHlo.Run
import Idealize.ShloMosaic.Lib.ValueLayout
import Idealize.ShloMosaic.Lib.Pipeline.Value

set_option maxRecDepth 16384

noncomputable section

open scoped BigOperators

namespace Cert.KernelIdeal.Whole

open Cert.KernelIdeal Cert.KernelIdeal.Gen Cert.KernelIdeal.Value Cert.KernelIdeal.Payload
open Idealize.ShloMosaic Idealize.ShloMosaic.TcCoe Idealize.SL.Sem Idealize.ShloMosaic.ValueIdx Cert.AffineSquare
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## What the region finds in the two arrays the host wrote -/

/-- The second window's array is the weight transposed. -/
theorem V_transposed (c : Dev nD) :
    (V m c main_v0 : S128x256.Idx → EReal)
      = transpose S128x256 [1, 0] (m ((c : Thread nD τ).loc main_arg1)) transposes_S256x128_S128x256_1_0 := by
  dsimp only [Gen.V, Gen.hostOps0]; after_results

/-- The third window's array is the bias given a leading unit axis. -/
theorem V_row (c : Dev nD) :
    (V m c main_v1 : S1x256.Idx → EReal)
      = shapeCast S1x256 (m ((c : Thread nD τ).loc main_arg2)) shapeCasts_S256_S1x256 := by
  dsimp only [Gen.V, Gen.hostOps0]; after_results; rfl

/-! ## Where each window's block sits at a point -/

/-- The row-band windows (the first and the last) sit at band `t`; the other two never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt (N_0 : cfg0.N = 32)

/-! ## The three input blocks read at an entry -/

/-- Entry `(r, d)` of the block of `x` at point `t` is `x` at row `4096·t + r`. -/
theorem xblock_apply (c : Dev nD) (t : Fin cfg0.N) (r : Fin 4096) (d : Fin 128) (b : Fin 131072)
    (hb : b.val = 4096 * t.val + r.val) :
    (iblk m c 0 t : Vec Ideal S4096x128 .f32) (ix2 r d)
      = (m ((c : Thread nD τ).loc main_arg0) : S131072x128.Idx → EReal) (ix2 b d) := by
  obtain ⟨e0, e1, -⟩ := block_indices t
  unfold iblk
  rw [View.read_apply, ← V_main_arg0 m c]
  show V m c main_arg0 (((cfg0.win 0).blk t).view.emb (ix2 r d)) = V m c main_arg0 (ix2 b d)
  refine congrArg (V m c main_arg0) (funext fun a => Fin.ext ?_)
  match a with
  | ⟨0, _⟩ => show win0_0.index t (0 : Fin 2) * 4096 + 1 * r.val = b.val; omega
  | ⟨1, _⟩ => show win0_0.index t (1 : Fin 2) * 128 + 1 * d.val = d.val; omega

/-- Entry `(d, o)` of the transposed weight's block (the whole of it, at every point) is the weight at `(o, d)`. -/
theorem wblock_apply (c : Dev nD) (t : Fin cfg0.N) (d : Fin 128) (o : Fin 256) :
    (iblk m c 1 t : Vec Ideal S128x256 .f32) (ix2 d o)
      = (m ((c : Thread nD τ).loc main_arg1) : S256x128.Idx → EReal) (ix2 o d) := by
  obtain ⟨-, -, e0, e1, -⟩ := block_indices t
  unfold iblk
  rw [View.read_apply]
  have hpos : ((cfg0.win 1).blk t).view.emb (ix2 d o) = (ix2 d o : S128x256.Idx) :=
    funext fun a => Fin.ext (by
      match a with
      | ⟨0, _⟩ => show win0_1.index t (0 : Fin 2) * 128 + 1 * d.val = d.val; omega
      | ⟨1, _⟩ => show win0_1.index t (1 : Fin 2) * 256 + 1 * o.val = o.val; omega)
  show (V m c main_v0 : S128x256.Idx → EReal) (((cfg0.win 1).blk t).view.emb (ix2 d o)) = _
  rw [hpos, V_transposed m c]
  exact transpose_ix2_apply _ _ d o

/-- Entry `(0, o)` of the bias row's block (the whole of it, at every point) is the bias at `o`. -/
theorem bblock_apply (c : Dev nD) (t : Fin cfg0.N) (o : Fin 256) :
    (iblk m c 2 t : Vec Ideal S1x256 .f32) (ix2 (0 : Fin 1) o)
      = (m ((c : Thread nD τ).loc main_arg2) : S256.Idx → EReal) (ix1 o) := by
  obtain ⟨-, -, -, -, e0, e1, -⟩ := block_indices t
  unfold iblk
  rw [View.read_apply]
  have hpos : ((cfg0.win 2).blk t).view.emb (ix2 (0 : Fin 1) o) = (ix2 (0 : Fin 1) o : S1x256.Idx) :=
    funext fun a => Fin.ext (by
      match a with
      | ⟨0, _⟩ => show win0_2.index t (0 : Fin 2) * 1 + 1 * 0 = 0; omega
      | ⟨1, _⟩ => show win0_2.index t (1 : Fin 2) * 256 + 1 * o.val = o.val; omega)
  show (V m c main_v1 : S1x256.Idx → EReal) (((cfg0.win 2).blk t).view.emb (ix2 (0 : Fin 1) o)) = _
  rw [hpos, V_row m c]
  exact shapeCast_a_1a_apply _ _ (0 : Fin 1) o

/-! ## What a point stores, against the whole-array function -/

/-- The payload of point `t` at `(r, o)` is the result at any index whose row is `4096·t + r` and whose column is `o`. -/
theorem point_entry (c : Dev nD) (t : Fin cfg0.N) (r : Fin 4096) (o : Fin 256) (i : S131072x256.Idx)
    (h0 : (i 0).val = 4096 * t.val + r.val) (h1 : (i 1).val = o.val) :
    k0_pay1 (F := Ideal) (iblk m c 0 t) (iblk m c 1 t) (iblk m c 2 t) (ix2 r o)
      = result (m ((c : Thread nD τ).loc main_arg0)) (m ((c : Thread nD τ).loc main_arg1))
          (m ((c : Thread nD τ).loc main_arg2)) i := by
  refine (pay_apply _ _ _ r o).trans ?_
  obtain ⟨b, o', rfl⟩ : ∃ (b : Fin 131072) (o' : Fin 256), i = ix2 b o' := ⟨i 0, i 1, eq_ix2 i⟩
  obtain rfl : o' = o := Fin.ext h1
  rw [result_ix2]
  unfold affine
  simp only [xblock_apply m c t r _ b h0, wblock_apply m c t, bblock_apply m c t]

/-- What point `t` writes back is block `t` of the result. -/
theorem flushed_eq (c : Dev nD) (t : Fin cfg0.N) :
    (dats m 0 c).flushed 3 t
      = ((cfg0.win 3).blk t).view.read (Elt Ideal)
          (result (m ((c : Thread nD τ).loc main_arg0)) (m ((c : Thread nD τ).loc main_arg1))
            (m ((c : Thread nD τ).loc main_arg2))) := by
  obtain ⟨-, -, -, -, -, -, e0, e1⟩ := block_indices t
  rw [flushed3]
  unfold out0_3
  rw [View.canon_unit_zero zero_offsets]
  simp only [View.ld_unit_zero (S := S4096x128) zero_offsets, View.ld_unit_zero (S := S128x256) zero_offsets,
    View.ld_unit_zero (S := S1x256) zero_offsets]
  funext j
  obtain ⟨r, o, rfl⟩ : ∃ (r : Fin 4096) (o : Fin 256), j = ix2 r o := ⟨j 0, j 1, eq_ix2 j⟩
  show k0_pay1 (F := Ideal) (iblk m c 0 t) (iblk m c 1 t) (iblk m c 2 t) (ix2 r o)
    = result (m ((c : Thread nD τ).loc main_arg0)) (m ((c : Thread nD τ).loc main_arg1))
        (m ((c : Thread nD τ).loc main_arg2)) (((cfg0.win 3).blk t).view.emb (ix2 r o))
  refine point_entry m c t r o _ ?_ ?_
  · show win0_3.index t (0 : Fin 2) * 4096 + 1 * r.val = 4096 * t.val + r.val; omega
  · show win0_3.index t (1 : Fin 2) * 256 + 1 * o.val = o.val; omega

/-! ## The 32 row bands cover the output -/

/-- An index of the output is in point `t`'s block iff each coordinate is in the block's range on its axis. -/
theorem mem_block (t : Fin cfg0.N) (i : S131072x256.Idx) :
    i ∈ ((cfg0.win 3).blk t).view.set
      ↔ ∀ a : Fin 2, win0_3.index t a * S4096x256.size a ≤ (i a).val
          ∧ (i a).val < win0_3.index t a * S4096x256.size a + S4096x256.size a := by
  show i ∈ ((View.whole main_v2).slice (win0_3.rect t)).set ↔ _
  rw [View.set_slice_whole, Rect.mem_set_unit]
  exact Iff.rfl

/-- Row `i 0` lies in band `(i 0) / 4096`. -/
theorem covered (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 32 := N_0
  let t : Fin cfg0.N := ⟨(i 0).val / 4096, by rw [hN]; omega⟩
  obtain ⟨-, -, -, -, -, -, e0, e1⟩ := block_indices t
  have ht : t.val = (i 0).val / 4096 := rfl
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

/-- After the run the output array is the result of the three arguments. -/
theorem final (c : Dev nD) :
    (dats m 0 c).arrAt 3 cfg0.N
      = result (m ((c : Thread nD τ).loc main_arg0)) (m ((c : Thread nD τ).loc main_arg1))
          (m ((c : Thread nD τ).loc main_arg2)) :=
  (dats m 0 c).arrAt_eq_of_cover 3 _ (fun t _ => flushed_eq m c t) covered

/-- The kernel's run, read: the output at the result of the arguments, the arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  A dense layer whose output is squared: for `x` of 131072 rows by 128, a weight of 256 rows by 128 and a bias of 256
  entries, the result at `(b, o)` is `z · z` with `z = (Σ_d x[b, d] · W[o, d]) + bias[o]`.

  The kernel transposes the weight and gives the bias a unit leading axis on the host, then, for each of 32 bands
  of 4096 rows, multiplies the band of `x` by the transposed weight into a zero accumulator, adds the bias row to
  every row and squares. The reference contracts `x` with the weight over their second axes, adds the bias repeated
  down the rows and squares. On the extended reals both are the function above (Proof/Spec.lean): the kernel's
  product reads the transposed weight at `(d, o)`, which is the weight at `(o, d)`, the zero accumulator adds
  nothing, and the same products are summed over the same index in both. No law that needs finite entries is
  used, so the precondition is never opened.

  Proof/RefValue.lean reads the reference's operations at an index; Proof/Payload.lean reads what the kernel body
  stores at an entry of its block; Proof/KernelValue.lean reads the blocks as bands of the arguments and puts the
  32 bands together into the whole output. The three frames are the programs' runs with the result dropped, and
  the idealization rewrote nothing, so there is nothing to preserve.
-/
import proofs.«162497_j39006892982497_1_alg».proof.Defs
import proofs.«162497_j39006892982497_1_alg».proof.Proof.Gen.Kernel
import proofs.«162497_j39006892982497_1_alg».proof.Proof.Gen.Kernel.Skeleton
import proofs.«162497_j39006892982497_1_alg».proof.Proof.Gen.Kernel.Launch
import proofs.«162497_j39006892982497_1_alg».proof.Proof.Gen.Kernel.Points
import proofs.«162497_j39006892982497_1_alg».proof.Proof.Gen.Kernel.Frame
import proofs.«162497_j39006892982497_1_alg».proof.Proof.Gen.KernelIdeal
import proofs.«162497_j39006892982497_1_alg».proof.Proof.Gen.KernelIdeal.Skeleton
import proofs.«162497_j39006892982497_1_alg».proof.Proof.Gen.KernelIdeal.Launch
import proofs.«162497_j39006892982497_1_alg».proof.Proof.Gen.KernelIdeal.Points
import proofs.«162497_j39006892982497_1_alg».proof.Proof.Gen.KernelIdeal.Frame
import proofs.«162497_j39006892982497_1_alg».proof.Proof.Gen.ReferenceIdeal
import proofs.«162497_j39006892982497_1_alg».proof.Proof.Gen.Pre_finite_inputs
import proofs.«162497_j39006892982497_1_alg».proof.Proof.Gen.KernelIdeal.Value
import proofs.«162497_j39006892982497_1_alg».proof.Proof.Gen.ReferenceIdeal.Run
import proofs.«162497_j39006892982497_1_alg».proof.Proof.Gen.ReferenceIdeal.Read
import proofs.«162497_j39006892982497_1_alg».proof.Proof.Spec
import proofs.«162497_j39006892982497_1_alg».proof.Proof.RefValue
import proofs.«162497_j39006892982497_1_alg».proof.Proof.KernelValue
import Idealize.ShloMosaic.Adequacy
import Idealize.ShloMosaic.Init

noncomputable section

namespace Cert.Proof

open Idealize.ShloMosaic Idealize.SL.Sem Cert.AffineSquare

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From arguments that agree, both programs end with the squared affine form of those arguments in their result. -/
theorem algebraic : Cert.algebraic_KernelIdeal_ReferenceIdeal := by
  intro m ρ m' ρ' _ hagree
  refine ⟨fun c => result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
